-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x64 : Shape := ⟨2, ![1024, 64]⟩
abbrev S1024 : Shape := ⟨1, ![1024]⟩
abbrev S100000x64 : Shape := ⟨2, ![100000, 64]⟩
abbrev S_ : Shape := ⟨0, ![]⟩

class Facts : Prop where
  bcast_S_S1024x64 : S_.BroadcastsInDim S1024x64 (![] : Fin 0 → Fin S1024x64.rank)
  reducesTo_S1024x64_S_d0_1 : S1024x64.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_

variable [Facts]

def fn {F : FTy → Type} [FloatOps F] (main_arg0 : FVec F S1024x64 .f32) (main_arg1 : IVec S1024 32) (main_arg2 : FVec F S100000x64 .f32) : IVec S_ 1 :=
  let main_v0 : FVec F S1024x64 .f32 := Host.absf main_arg0
  let main_cst : FVec F S_ .f32 := constant S_ .f32 0x7F800000#32
  let main_v1 : FVec F S1024x64 .f32 := broadcastInDim S1024x64 ![] bcast_S_S1024x64 main_cst
  let main_v2 : IVec S1024x64 1 := cmpf .olt main_v0 main_v1
  let main_c : IVec S_ 1 := constantI S_ 1 1#1
  let main_v3 : IVec S_ 1 := (fun x v => Host.reduce IntOp.andi x v reducesTo_S1024x64_S_d0_1 h_S_) main_v2 main_c
  let main_v4 : FVec F S100000x64 .f32 := Host.absf main_arg2
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  main_v8
-- ==== Kernel.lean ====
abbrev S1024x64 : Shape := ⟨2, ![1024, 64]⟩
abbrev S1024 : Shape := ⟨1, ![1024]⟩
abbrev S100000x64 : Shape := ⟨2, ![100000, 64]⟩
abbrev S8x128 : Shape := ⟨2, ![8, 128]⟩
abbrev S1024x100000 : Shape := ⟨2, ![1024, 100000]⟩
abbrev S2048x64 : Shape := ⟨2, ![2048, 64]⟩
abbrev S1024x2048 : Shape := ⟨2, ![1024, 2048]⟩

abbrev nBuf : Space → Nat
  | .hbm => 7
  | .vmem => 7
  | .smem => 0
  | _ => 0

abbrev bufTy : (tb : Table) → Fin (tcTables nBuf tb) → BufTy
  | .hbm, ⟨0, _⟩ => ⟨S1024x64, .f32⟩
  | .hbm, ⟨1, _⟩ => ⟨S1024, .i32⟩
  | .hbm, ⟨2, _⟩ => ⟨S100000x64, .f32⟩
  | .hbm, ⟨3, _⟩ => ⟨S8x128, .i32⟩
  | .hbm, ⟨4, _⟩ => ⟨S1024x100000, .f32⟩
  | .hbm, ⟨5, _⟩ => ⟨S8x128, .i32⟩
  | .hbm, ⟨6, _⟩ => ⟨S1024, .i32⟩
  | .local _ .vmem, ⟨0, _⟩ => ⟨S1024x64, .f32⟩
  | .local _ .vmem, ⟨1, _⟩ => ⟨S8x128, .i32⟩
  | .local _ .vmem, ⟨2, _⟩ => ⟨S2048x64, .f32⟩
  | .local _ .vmem, ⟨3, _⟩ => ⟨S2048x64, .f32⟩
  | .local _ .vmem, ⟨4, _⟩ => ⟨S1024x2048, .f32⟩
  | .local _ .vmem, ⟨5, _⟩ => ⟨S1024x2048, .f32⟩
  | .local _ .vmem, ⟨6, _⟩ => ⟨S8x128, .i32⟩
  | _, _ => ⟨S1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_v0_0 : Ref sig .tc := ⟨.hbm, 4, rfl⟩
abbrev main_call0_v1_1 : Ref sig .tc := ⟨.hbm, 5, rfl⟩
abbrev main_v0_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  shapeCasts_S1024_S8x128 : S1024.ShapeCasts S8x128
  shapeCasts_S8x128_S1024 : S8x128.ShapeCasts S1024
  inb_S1024x64_S1024x64_0_0 : ∀ a, (![0, 0] : Fin 2 → Nat) a + S1024x64.size a ≤ S1024x64.size a
  h_S1024x64 : 0 < S1024x64.numel
  bitsLt_bf16_f32 : FTy.bits .bf16 < FTy.bits .f32
  inb_S2048x64_S2048x64_0_0 : ∀ a, (![0, 0] : Fin 2 → Nat) a + S2048x64.size a ≤ S2048x64.size a
  h_S2048x64 : 0 < S2048x64.numel
  inb_S1024x2048_S1024x2048_0_0 : ∀ a, (![0, 0] : Fin 2 → Nat) a + S1024x2048.size a ≤ S1024x2048.size a
  h_S1024x2048 : 0 < S1024x2048.numel
  inb_S8x128_S8x128_0_0 : ∀ a, (![0, 0] : Fin 2 → Nat) a + S8x128.size a ≤ S8x128.size a
  h_S8x128 : 0 < S8x128.numel
  shapeCasts_S8x128_S8x128 : S8x128.ShapeCasts S8x128
  dot_S1024x64_S2048x64_S1024x2048_1_1_0_0_n_n_wf : DotDims.WF S1024x64 S2048x64 S1024x2048 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S1024x64.size a
  hwx0_0 : ∀ i : grid0.Coords, EltTy.bits .f32 = 32 ∨ (Rect.block (s := S1024x64) S1024x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S8x128.size a
  hwx0_1 : ∀ i : grid0.Coords, EltTy.bits .i32 = 32 ∨ (Rect.block (s := S8x128) S8x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S2048x64.size a < S100000x64.size a
  hwx0_2 : ∀ i : grid0.Coords, EltTy.bits .f32 = 32 ∨ (Rect.unit (s := S100000x64) (fun a => cc0_transform_2 i a * S2048x64.size a) (fun a => (Pipeline.Clip.of (cc0_transform_2 i a) (S2048x64.size a) (S100000x64.size a)).extent (S2048x64.size a)) fun a => Pipeline.Clip.inb (Pipeline.Clip.ok_of (hstart0_2 i a))).WholeWords (EltTy.packing .f32)
  hwxs0_2 : ∀ i : grid0.Coords, EltTy.bits .f32 = 32 ∨ (Rect.unit (s := S2048x64) (fun _ => 0) (fun a => (Pipeline.Clip.of (cc0_transform_2 i a) (S2048x64.size a) (S100000x64.size a)).extent (S2048x64.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1024x2048.size a < S1024x100000.size a
  hwx0_3 : ∀ i : grid0.Coords, EltTy.bits .f32 = 32 ∨ (Rect.unit (s := S1024x100000) (fun a => cc0_transform_3 i a * S1024x2048.size a) (fun a => (Pipeline.Clip.of (cc0_transform_3 i a) (S1024x2048.size a) (S1024x100000.size a)).extent (S1024x2048.size a)) fun a => Pipeline.Clip.inb (Pipeline.Clip.ok_of (hstart0_3 i a))).WholeWords (EltTy.packing .f32)
  hwxs0_3 : ∀ i : grid0.Coords, EltTy.bits .f32 = 32 ∨ (Rect.unit (s := S1024x2048) (fun _ => 0) (fun a => (Pipeline.Clip.of (cc0_transform_3 i a) (S1024x2048.size a) (S1024x100000.size a)).extent (S1024x2048.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S8x128.size a
  hwx0_4 : ∀ i : grid0.Coords, EltTy.bits .i32 = 32 ∨ (Rect.block (s := S8x128) S8x128.size (cc0_transform_4 i) (hinb0_4 i)).WholeWords (EltTy.packing .i32)

variable [Facts₀]

def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf

abbrev win0_0 : Pipeline.Window sig grid0 :=
  Pipeline.Window.ofSpec (Memref.whole main_arg0) S1024x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S8x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_arg2) S2048x64.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v0_0) S1024x2048.size cc0_transform_3 reads0_3 true false 2 stage0_3 sem0_3
    hrank0 hreads0_3 hstart0_3 nbuf0_3 (Memref.isWhole_whole _) hwx0_3 hwxs0_3 hstage0_3

abbrev win0_4 : Pipeline.Window sig grid0 :=
  Pipeline.Window.ofSpec (Memref.whole main_call0_v1_1) S8x128.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1024x64 : Shape := ⟨2, ![1024, 64]⟩
abbrev S1024 : Shape := ⟨1, ![1024]⟩
abbrev S100000x64 : Shape := ⟨2, ![100000, 64]⟩
abbrev S_ : Shape := ⟨0, ![]⟩
abbrev S64x100000 : Shape := ⟨2, ![64, 100000]⟩
abbrev S1024x100000 : Shape := ⟨2, ![1024, 100000]⟩

abbrev nBuf : Space → Nat
  | .hbm => 16
  | .vmem => 0
  | .smem => 0
  | _ => 0

abbrev bufTy : (tb : Table) → Fin (tcTables nBuf tb) → BufTy
  | .hbm, ⟨0, _⟩ => ⟨S1024x64, .f32⟩
  | .hbm, ⟨1, _⟩ => ⟨S1024, .i32⟩
  | .hbm, ⟨2, _⟩ => ⟨S100000x64, .f32⟩
  | .hbm, ⟨3, _⟩ => ⟨S_, .i32⟩
  | .hbm, ⟨4, _⟩ => ⟨S1024, .i32⟩
  | .hbm, ⟨5, _⟩ => ⟨S1024, .i1⟩
  | .hbm, ⟨6, _⟩ => ⟨S_, .i32⟩
  | .hbm, ⟨7, _⟩ => ⟨S1024, .i32⟩
  | .hbm, ⟨8, _⟩ => ⟨S1024, .i1⟩
  | .hbm, ⟨9, _⟩ => ⟨S1024, .i1⟩
  | .hbm, ⟨10, _⟩ => ⟨S_, .i32⟩
  | .hbm, ⟨11, _⟩ => ⟨S_, .i32⟩
  | .hbm, ⟨12, _⟩ => ⟨S1024, .i32⟩
  | .hbm, ⟨13, _⟩ => ⟨S1024, .i32⟩
  | .hbm, ⟨14, _⟩ => ⟨S64x100000, .f32⟩
  | .hbm, ⟨15, _⟩ => ⟨S1024x100000, .f32⟩
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  transposes_S100000x64_S64x100000_1_0 : S100000x64.Transposes [1, 0] S64x100000
  dot_S1024x64_S64x100000_S1024x100000_1_0_0_1_n_n_wf : DotDims.WF S1024x64 S64x100000 S1024x100000 [1] [0] [0] [1] [] []

variable [Facts₀]

def dot_S1024x64_S64x100000_S1024x100000_1_0_0_1_n_n : DotDims S1024x64 S64x100000 S1024x100000 where
  lhsContracting := [1]
  rhsContracting := [0]
  lhsNonContracting := [0]
  rhsNonContracting := [1]
  lhsBatch := []
  rhsBatch := []
  wf := dot_S1024x64_S64x100000_S1024x100000_1_0_0_1_n_n_wf

class Facts : Prop extends Facts₀ where

variable [Facts]
-- ==== Proof.BitsBody.lean ====
/-
  The kernel body as a Hoare triple, for any float instance.

  The body reads its three input staging buffers whole (the batch of feature rows, the 8 x 128 tile of labels, one
  slab of 2048 table rows), reads its two output buffers (dead loads), and stores whole: into the score buffer the
  product of the feature rows with the slab's rows (contracted over the 64 features), into the label buffer the
  labels with every out-of-range one replaced by -1. Each store covers its buffer, so after the body each output
  buffer holds exactly the stored payload, a function of the loaded inputs alone; the inputs are left as found.
-/
import proofs.«166110_g46832323396030_cont_8to1c4_234_3_alg».proof.Proof.Gen.Kernel.Frame
import proofs.«166110_g46832323396030_cont_8to1c4_234_3_alg».proof.Proof.Gen.Kernel.Skeleton
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole-buffer rectangles the body loads and stores through. -/
abbrev rF : Rect S1024x64 := Rect.unit (s := S1024x64) ![0, 0] S1024x64.size inb_S1024x64_S1024x64_0_0
abbrev rL : Rect S8x128 := Rect.unit (s := S8x128) ![0, 0] S8x128.size inb_S8x128_S8x128_0_0
abbrev rW : Rect S2048x64 := Rect.unit (s := S2048x64) ![0, 0] S2048x64.size inb_S2048x64_S2048x64_0_0
abbrev rS : Rect S1024x2048 := Rect.unit (s := S1024x2048) ![0, 0] S1024x2048.size inb_S1024x2048_S1024x2048_0_0

theorem hz2 : (![0, 0] : Fin 2 → Nat) = fun _ => 0 := funext fun a => by fin_cases a <;> rfl

/-- One whole store covers its buffer. -/
theorem coverS (p0 : Vec F S1024x2048 .f32) (y : S1024x2048.Idx) :
    ∃ pc ∈ ([⟨rS, p0⟩] : List (View.Piece (Elt F) S1024x2048 .f32)), y ∈ pc.1.set :=
  View.cover_of_tiled [⟨rS, p0⟩] S1024x2048.size (by rfl) y
theorem coverL (p0 : Vec F S8x128 .i32) (y : S8x128.Idx) :
    ∃ pc ∈ ([⟨rL, p0⟩] : List (View.Piece (Elt F) S8x128 .i32)), y ∈ pc.1.set :=
  View.cover_of_tiled [⟨rL, p0⟩] S8x128.size (by rfl) y

set_option maxHeartbeats 1000000 in
/-- The body on whole staging memrefs: the three inputs at contents `x0`, `x1`, `x2` and the two outputs at anything
    run to the continuation with the inputs as they were, the score buffer at the product of `x0` and `x2` and the
    label buffer at the sanitized `x1`. -/
theorem sound_kernel (c : Dev nD) (E : Set ℕ) (i : grid0.Coords)
    (arg1 : Memref sig .tc .vmem S1024x64 .f32) (harg1 : arg1.IsWhole) (arg2 : Memref sig .tc .vmem S8x128 .i32) (harg2 : arg2.IsWhole)
    (arg3 : Memref sig .tc .vmem S2048x64 .f32) (harg3 : arg3.IsWhole) (arg4 : Memref sig .tc .vmem S1024x2048 .f32) (harg4 : arg4.IsWhole)
    (arg5 : Memref sig .tc .vmem S8x128 .i32) (harg5 : arg5.IsWhole)
    (x0 : Vec F S1024x64 .f32) (x1 : Vec F S8x128 .i32) (x2 : Vec F S2048x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k0_pay1 x0 x2) ∗ owns (c : Thread nD τ) arg5 fullShare (k0_pay2 (F := F) x1)) -∗ K ⟨⟩))
      ⊢ wp frame (wpE (defs₀ (F := F)) Variants.none c none) E
          (cc0__matmul_kernel i arg1 harg1 arg2 harg2 arg3 harg3 arg4 harg4 arg5 harg5) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (coverS _), View.canon_unit_zero hz2]
    simp only [View.readAt_eq_ld, View.ld_unit_zero (S := S1024x64) hz2, View.ld_unit_zero (S := S2048x64) hz2]
  · iexists _; isplitr
    swap; · iexact H4
    ipureintro
    rw [View.read_writes_eq_canon _ _ _ (coverL _), View.canon_unit_zero hz2]
    simp only [View.readAt_eq_ld, View.ld_unit_zero (S := S8x128) hz2]

end Cert.Kernel.Body

end
-- ==== Proof.BitsData.lean ====
/-
  The frame of the word-level kernel.

  At the word level an entry of the matrix unit's product is not a function of one row of its right operand alone, so
  what the body leaves in the score buffer cannot be named independently of the words the clipped fetch of the last
  table slab left past the table's end. The frame does not need it: the two output windows are forgotten (each
  output staging buffer is handed back at some contents), the three input windows are stated exactly — the feature
  batch and the label tile at their blocks, the table slab at its block on the rows inside the table — and the run's
  post then leaves every argument array at its launch contents.
-/
import proofs.«166110_g46832323396030_cont_8to1c4_234_3_alg».proof.Proof.BitsBody
import proofs.«166110_g46832323396030_cont_8to1c4_234_3_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Tactic

set_option maxRecDepth 16384

noncomputable section

namespace Cert.Kernel.Data

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output windows whose contents the frame never reads: the score window and the label window. -/
def forgets : Fin 5 → Bool := fun | 0 => false | 1 => false | 2 => false | 3 => true | 4 => true | ⟨_ + 5, h⟩ => absurd h (Nat.not_lt.2 (Nat.le_add_left _ _))

/-- The proof data on core `c`: the arrays as the region finds them; after the body each input buffer at its block
    (the table slab's filled out past the table's end by a word nothing reads), the outputs unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => win0_2.fill (grid0.coords t) (fun _ => Scalar.ofBits .f32 0#32) (iblk m c 2 t)
    | ⟨3, h⟩ => Pipeline.Dat.unnamed (cfg := cfg0) ⟨3, h⟩ t
    | ⟨4, h⟩ => Pipeline.Dat.unnamed (cfg := cfg0) ⟨4, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) :
    (dats m 0 c).after 2 t = win0_2.fill (grid0.coords t) (fun _ => Scalar.ofBits .f32 0#32) (iblk m c 2 t) := by dsimp only [dats]

/-- The feature batch and the label tile are fetched once and found at their blocks at every point; the table slab is
    fetched at every point: its block on the rows inside the table, anything past them. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = win0_2.fill (grid0.coords t) d (iblk m c 2 t) := by
  unfold Dat.before; rw [if_pos (fetch0_2 t)]; rfl

/-- The body obligation with the outputs forgotten: the body's triple at the point's staging buffers. -/
theorem body_obligation (c : Dev nD) : BodyObligationLoose (dats m 0 c) (defs₀ (F := F)) Variants.none () Set.univ forgets := fun t => by
  rw [bigSep_W0, bigSep_W0]
  simp only [forgets]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩⟩
  rw [before0 m c t d0, before1 m c t d1, before2 m c t d2, after0, after1, after2]
  iapply (Body.sound_kernel (F := F) c Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (iblk m c 0 t) (iblk m c 1 t) (win0_2.fill (grid0.coords t) d2 (iblk m c 2 t)) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]
  · iexists d2
    rw [Window.cut_fill]
    iexact H2
  isplitl [H3]
  · iexists _; iexact H3
  · iexists _; iexact H4

/-- The one buffer the host line after the region writes: the flat label result. -/
abbrev tailWrites : Finset (Ref sig .tc) := {main_v0_1}

theorem sfx_writes : ∀ ops ∈ ([hostOps1] : List (List (HloOp τ sig (Elt F)))), ∀ op ∈ ops,
    ∀ b : Ref sig .tc, Proc.devRef .tc b ∈ op.writes → b ∈ tailWrites := by
  intro ops hops op hop b hb
  simp only [List.mem_cons, List.mem_nil_iff, or_false] at hops
  rcases hops with rfl
  simp only [hostOps1, List.mem_cons, List.mem_nil_iff, or_false] at hop
  rcases hop with rfl
  simp only [StableHlo.reshape_writes, Finset.mem_singleton] at hb
  exact Finset.mem_singleton.mpr (Proc.devRef_injective _ hb)

set_option backward.isDefEq.respectTransparency.types false in
/-- Every weakly fair execution of @main terminates without a fault; every input array of the pipeline ends at its
    region-entry contents, and every other unscoped buffer the last host line does not write at its own. -/
theorem run_main : θ_run defs (onTc (τ := τ) (main (F := F))) (s₀ m ρ)
    (Pipeline.RDat.FramePostR (cfgs 0) (fun c => (dats m 0 c).toRForget forgets) tailWrites (fun c b => V0 m c (Proc.devRef .tc b))) :=
  Pipeline.RDat.θ_run_frame_around_T cfgs (0 : Fin 1) launch0 defs₀ Variants.none (fun c => (dats m 0 c).toRForget forgets) tailWrites m ρ main
    (hbody := fun c => (body_obligation m c).toRForget) (hshare := fun c => ((dats m 0 c).toRForget forgets).share_full fun _ => rfl)
    (howed := fun _ _ => rfl) (V₀ := V0 m) (opss := [hostOps1]) (hsub := sfx_sub) (hfresh := sfx_fresh) (hkeep := sfx_keeps)
    (hT := sfx_writes) (hmain := hmain m Variants.none) (hA := A_eq m) (hΦ := fun _ _ => rfl)

/-- The frame: the three argument arrays end as launched — the feature batch and the table as input arrays of the
    pipeline, the flat labels as a buffer neither the region nor the last host line writes. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(Eq.mp (congrFun (((dats m 0 c).toRForget forgets).ArrAt_in 0 rfl _) _) ((h c).1 0)).trans ((A_eq m c 0).trans (V_main_arg0 m c)),
      ((h c).2 main_arg1 (Finset.mem_sdiff.mpr ⟨Pipeline.mem_restRefs_of main_arg1 (by decide) (by decide), by decide⟩)).trans (V_main_arg1 m c),
      (Eq.mp (congrFun (((dats m 0 c).toRForget forgets).ArrAt_in 2 rfl _) _) ((h c).1 2)).trans ((A_eq m c 2).trans (V_main_arg2 m c))⟩)
    (run_main m ρ)

end Cert.Kernel.Data

end
-- ==== Proof.IdealBody.lean ====
/-
  The kernel body as a Hoare triple, for any float instance.

  The body reads its three input staging buffers whole (the batch of feature rows, the 8 x 128 tile of labels, one
  slab of 2048 table rows), reads its two output buffers (dead loads), and stores whole: into the score buffer the
  product of the feature rows with the slab's rows (contracted over the 64 features), into the label buffer the
  labels with every out-of-range one replaced by -1. Each store covers its buffer, so after the body each output
  buffer holds exactly the stored payload, a function of the loaded inputs alone; the inputs are left as found.
-/
import proofs.«166110_g46832323396030_cont_8to1c4_234_3_alg».proof.Proof.Gen.KernelIdeal.Frame
import proofs.«166110_g46832323396030_cont_8to1c4_234_3_alg».proof.Proof.Gen.KernelIdeal.Skeleton
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole-buffer rectangles the body loads and stores through. -/
abbrev rF : Rect S1024x64 := Rect.unit (s := S1024x64) ![0, 0] S1024x64.size inb_S1024x64_S1024x64_0_0
abbrev rL : Rect S8x128 := Rect.unit (s := S8x128) ![0, 0] S8x128.size inb_S8x128_S8x128_0_0
abbrev rW : Rect S2048x64 := Rect.unit (s := S2048x64) ![0, 0] S2048x64.size inb_S2048x64_S2048x64_0_0
abbrev rS : Rect S1024x2048 := Rect.unit (s := S1024x2048) ![0, 0] S1024x2048.size inb_S1024x2048_S1024x2048_0_0

theorem hz2 : (![0, 0] : Fin 2 → Nat) = fun _ => 0 := funext fun a => by fin_cases a <;> rfl

/-- One whole store covers its buffer. -/
theorem coverS (p0 : Vec F S1024x2048 .f32) (y : S1024x2048.Idx) :
    ∃ pc ∈ ([⟨rS, p0⟩] : List (View.Piece (Elt F) S1024x2048 .f32)), y ∈ pc.1.set :=
  View.cover_of_tiled [⟨rS, p0⟩] S1024x2048.size (by rfl) y
theorem coverL (p0 : Vec F S8x128 .i32) (y : S8x128.Idx) :
    ∃ pc ∈ ([⟨rL, p0⟩] : List (View.Piece (Elt F) S8x128 .i32)), y ∈ pc.1.set :=
  View.cover_of_tiled [⟨rL, p0⟩] S8x128.size (by rfl) y

set_option maxHeartbeats 1000000 in
/-- The body on whole staging memrefs: the three inputs at contents `x0`, `x1`, `x2` and the two outputs at anything
    run to the continuation with the inputs as they were, the score buffer at the product of `x0` and `x2` and the
    label buffer at the sanitized `x1`. -/
theorem sound_kernel (c : Dev nD) (E : Set ℕ) (i : grid0.Coords)
    (arg1 : Memref sig .tc .vmem S1024x64 .f32) (harg1 : arg1.IsWhole) (arg2 : Memref sig .tc .vmem S8x128 .i32) (harg2 : arg2.IsWhole)
    (arg3 : Memref sig .tc .vmem S2048x64 .f32) (harg3 : arg3.IsWhole) (arg4 : Memref sig .tc .vmem S1024x2048 .f32) (harg4 : arg4.IsWhole)
    (arg5 : Memref sig .tc .vmem S8x128 .i32) (harg5 : arg5.IsWhole)
    (x0 : Vec F S1024x64 .f32) (x1 : Vec F S8x128 .i32) (x2 : Vec F S2048x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k0_pay1 x0 x2) ∗ owns (c : Thread nD τ) arg5 fullShare (k0_pay2 (F := F) x1)) -∗ K ⟨⟩))
      ⊢ wp frame (wpE (defs₀ (F := F)) Variants.none c none) E
          (cc0__matmul_kernel i arg1 harg1 arg2 harg2 arg3 harg3 arg4 harg4 arg5 harg5) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (coverS _), View.canon_unit_zero hz2]
    simp only [View.readAt_eq_ld, View.ld_unit_zero (S := S1024x64) hz2, View.ld_unit_zero (S := S2048x64) hz2]
  · iexists _; isplitr
    swap; · iexact H4
    ipureintro
    rw [View.read_writes_eq_canon _ _ _ (coverL _), View.canon_unit_zero hz2]
    simp only [View.readAt_eq_ld, View.ld_unit_zero (S := S8x128) hz2]

end Cert.KernelIdeal.Body

end
-- ==== Proof.IdealPayload.lean ====
/-
  The score payload at an index, over the extended reals.

  At the ideal instance a change of float format is the identity and the matrix unit's product into a zero
  accumulator is the plain sum: entry (p, q) of the body's score block is the sum over the 64 features k of
  (feature row p at k) times (table-slab row q at k). Entry (p, q) therefore depends on row p of the left operand
  and row q of the right operand only.
-/
import proofs.«166110_g46832323396030_cont_8to1c4_234_3_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen
open Idealize.ShloMosaic Idealize.SL.Sem

local notation "D" => dot_S1024x64_S2048x64_S1024x2048_1_1_0_0_n_n

/-- Row `(j 0)`, feature `k` of the left operand. -/
abbrev lix (j : S1024x2048.Idx) (k : Fin 64) : S1024x64.Idx := fun a => match a with
  | ⟨0, _⟩ => ⟨(j 0).val, (j 0).isLt⟩
  | ⟨1, _⟩ => ⟨k.val, k.isLt⟩
/-- Row `(j 1)`, feature `k` of the right operand. -/
abbrev rix (j : S1024x2048.Idx) (k : Fin 64) : S2048x64.Idx := fun a => match a with
  | ⟨0, _⟩ => ⟨(j 1).val, (j 1).isLt⟩
  | ⟨1, _⟩ => ⟨k.val, k.isLt⟩

theorem lhs_free (i : S1024x2048.Idx) (q : (D).contr.Idx) : ((D).lhsIdx i q 0).val = (i 0).val := by
  unfold DotDims.lhsIdx
  rw [dif_neg (show ¬(0 : Fin S1024x64.rank) ∈ (D).lhsBatch by decide), dif_pos (show (0 : Fin S1024x64.rank) ∈ (D).lhsNonContracting by decide)]
  rfl
theorem rhs_free (i : S1024x2048.Idx) (q : (D).contr.Idx) : ((D).rhsIdx i q 0).val = (i 1).val := by
  unfold DotDims.rhsIdx
  rw [dif_neg (show ¬(0 : Fin S2048x64.rank) ∈ (D).rhsBatch by decide), dif_pos (show (0 : Fin S2048x64.rank) ∈ (D).rhsNonContracting by decide)]
  rfl

/-- Entry `j` of the score payload is the sum over the features of the products of the two operands' rows. -/
theorem pay1_apply (x0 : Vec Ideal S1024x64 .f32) (x2 : Vec Ideal S2048x64 .f32) (j : S1024x2048.Idx) :
    k0_pay1 (F := Ideal) x0 x2 j = ∑ k : Fin 64, x0 (lix j k) * x2 (rix j k) := by
  unfold k0_pay1
  simp only [matmul]
  rw [Ideal.matmul_constant_zero_apply, ← Equiv.sum_comp (ValueIdx.contrEquiv1 D 64 rfl rfl).symm]
  refine Finset.sum_congr rfl fun k _ => ?_
  have hk := ValueIdx.contrEquiv1_symm_val D 64 rfl rfl k
  have el : (D).lhsIdx j ((ValueIdx.contrEquiv1 D 64 rfl rfl).symm k) = lix j k := funext fun a => Fin.ext (by
    match a with
    | ⟨0, _⟩ => exact lhs_free _ _
    | ⟨1, _⟩ => exact ((D).lhsIdx_val_of_single rfl j _).trans hk)
  have er : (D).rhsIdx j ((ValueIdx.contrEquiv1 D 64 rfl rfl).symm k) = rix j k := funext fun a => Fin.ext (by
    match a with
    | ⟨0, _⟩ => exact rhs_free _ _
    | ⟨1, _⟩ => exact ((D).rhsIdx_val_of_single rfl j _).trans hk)
  rw [el, er]
  rfl

end Cert.KernelIdeal.Payload

end
-- ==== Proof.IdealData.lean ====
/-
  The idealized kernel's run, with every output named.

  The specification: entry (i, j) of the score array is the sum over the 64 features k of feats(i, k) * table(j, k).
  Grid point t stages rows 2048 t .. 2048 t + 2047 of the table and writes back columns 2048 t .. 2048 t + 2047 of the
  score array; at the last point both overhang (the table has 100000 rows) and both transfers are cut to the 1696
  rows, resp. columns, inside the arrays. What the body computes from the slab buffer's rows past the table's end
  lands in score columns past the array's end, which are never written back: over the extended reals entry (p, q)
  of the body's product reads row q of the slab only. So at every point the written-back part of the score buffer
  is the score array's block, and the proof data can name each output buffer on the part that moves.
-/
import proofs.«166110_g46832323396030_cont_8to1c4_234_3_alg».proof.Proof.IdealBody
import proofs.«166110_g46832323396030_cont_8to1c4_234_3_alg».proof.Proof.IdealPayload
import proofs.«166110_g46832323396030_cont_8to1c4_234_3_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Tactic

set_option maxRecDepth 16384

noncomputable section

namespace Cert.KernelIdeal.Data

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- Row `(i 0)`, feature `k` of the feature batch; row `(i 1)`, feature `k` of the table. -/
abbrev fix (i : S1024x100000.Idx) (k : Fin 64) : S1024x64.Idx := fun a => match a with
  | ⟨0, _⟩ => ⟨(i 0).val, (i 0).isLt⟩
  | ⟨1, _⟩ => ⟨k.val, k.isLt⟩
abbrev wix (i : S1024x100000.Idx) (k : Fin 64) : S100000x64.Idx := fun a => match a with
  | ⟨0, _⟩ => ⟨(i 1).val, (i 1).isLt⟩
  | ⟨1, _⟩ => ⟨k.val, k.isLt⟩

/-- THE SCORE: feats times the table's transpose, entry by entry, over the extended reals. -/
def score (feats : S1024x64.Idx → Elt Ideal .f32) (lut : S100000x64.Idx → Elt Ideal .f32) : S1024x100000.Idx → Elt Ideal .f32 :=
  fun i => ∑ k : Fin 64, feats (fix i k) * lut (wix i k)

/-- The score of the argument arrays as the region finds them. -/
def scoreArr (c : Dev nD) : S1024x100000.Idx → Elt Ideal .f32 := score (V m c main_arg0) (V m c main_arg2)

/-- The proof data on core `c`: the arrays as the region finds them; after the body at point `t` the feature batch
    and the label tile at their blocks, the table slab at its block (past the table's end a filler nothing reads),
    the score buffer at the score array's block (likewise filled out), the label buffer at the sanitized labels. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => win0_2.fill (grid0.coords t) (fun _ => (0 : EReal)) (iblk m c 2 t)
    | ⟨3, _⟩ => win0_3.fill (grid0.coords t) (fun _ => (0 : EReal)) ((win0_3.blk t).view.read (Elt Ideal) (scoreArr m c))
    | ⟨4, _⟩ => k0_pay2 (F := Ideal) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = win0_2.fill (grid0.coords t) (fun _ => (0 : EReal)) (iblk m c 2 t) := by dsimp only [dats]
theorem after3 (c : Dev nD) (t : Fin cfg0.N) : (dats m 0 c).after 3 t = win0_3.fill (grid0.coords t) (fun _ => (0 : EReal)) ((win0_3.blk t).view.read (Elt Ideal) (scoreArr m c)) := by dsimp only [dats]
theorem after4 (c : Dev nD) (t : Fin cfg0.N) : (dats m 0 c).after 4 t = k0_pay2 (F := Ideal) (iblk m c 1 t) := by dsimp only [dats]

/-- The feature batch and the label tile are fetched once and found at their blocks at every point; the table slab is
    fetched at every point: its block on the rows inside the table, anything past them. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = win0_2.fill (grid0.coords t) d (iblk m c 2 t) := by
  unfold Dat.before; rw [if_pos (fetch0_2 t)]; rfl

/-- The printed index maps and clipped extents, decided over the 49 grid points: the feature batch and the label tile
    sit at block (0, 0); the table slab at point `t` is block `t` of the rows; the score block is block `t` of the
    columns; the table slab's rows inside the table are as many as the score block's columns inside the score array. -/
theorem idx_facts : ∀ t : Fin cfg0.N,
    win0_0.index t (0 : Fin 2) = 0 ∧ win0_0.index t (1 : Fin 2) = 0
    ∧ win0_2.index t (0 : Fin 2) = t.val ∧ win0_2.index t (1 : Fin 2) = 0
    ∧ win0_3.index t (0 : Fin 2) = 0 ∧ win0_3.index t (1 : Fin 2) = t.val
    ∧ win0_2.xsize (grid0.coords t) (0 : Fin 2) = win0_3.xsize (grid0.coords t) (1 : Fin 2)
    ∧ win0_2.xsize (grid0.coords t) (1 : Fin 2) = 64
    ∧ win0_3.xsize (grid0.coords t) (0 : Fin 2) = 1024
    ∧ win0_3.xsize (grid0.coords t) (1 : Fin 2) = min 2048 (100000 - 2048 * t.val) :=
  (by decide +kernel : ∀ t : Fin grid0.N, _)

/-- The part of the body's score block that is written back — its columns inside the score array — is the score
    array's block, whatever the table slab's buffer holds past the table's end: entry (p, q) reads row q of the slab
    only, and q is a row the fetch filled. -/
theorem score_cut (c : Dev nD) (t : Fin cfg0.N) (d2 : S2048x64.Idx → Elt Ideal .f32) :
    win0_3.cut (grid0.coords t) (k0_pay1 (F := Ideal) (iblk m c 0 t) (win0_2.fill (grid0.coords t) d2 (iblk m c 2 t)))
      = (win0_3.blk t).view.read (Elt Ideal) (scoreArr m c) := by
  obtain ⟨e00, e01, e20, e21, e30, e31, ex, ex21, ex30, ex31⟩ := idx_facts t
  funext j
  show k0_pay1 (F := Ideal) _ _ (win0_3.xinj (grid0.coords t) j) = scoreArr m c ((win0_3.blk t).view.emb j)
  rw [Payload.pay1_apply]
  unfold scoreArr score
  refine Finset.sum_congr rfl fun k _ => ?_
  have hj0 : (j 0).val < win0_3.xsize (grid0.coords t) (0 : Fin 2) := (j 0).isLt
  have hj1 : (j 1).val < win0_3.xsize (grid0.coords t) (1 : Fin 2) := (j 1).isLt
  have hk : k.val < 64 := k.isLt
  have hL : iblk m c 0 t (Payload.lix (win0_3.xinj (grid0.coords t) j) k) = V m c main_arg0 (fix ((win0_3.blk t).view.emb j) k) := by
    show V m c main_arg0 (((cfg0.win 0).blk t).view.emb (Payload.lix (win0_3.xinj (grid0.coords t) j) k)) = _
    refine congrArg _ ?_
    funext a; apply Fin.ext
    match a with
    | ⟨0, _⟩ => show win0_0.index t (0 : Fin 2) * 1024 + 1 * (j 0).val = win0_3.index t (0 : Fin 2) * 1024 + 1 * (j 0).val; omega
    | ⟨1, _⟩ => show win0_0.index t (1 : Fin 2) * 64 + 1 * k.val = k.val; omega
  have hR : win0_2.fill (grid0.coords t) d2 (iblk m c 2 t) (Payload.rix (win0_3.xinj (grid0.coords t) j) k) = V m c main_arg2 (wix ((win0_3.blk t).view.emb j) k) := by
    have hmv : ∀ a, ((Payload.rix (win0_3.xinj (grid0.coords t) j) k) a).val < win0_2.xsize (grid0.coords t) a := fun a => by
      match a with
      | ⟨0, _⟩ => show (j 1).val < win0_2.xsize (grid0.coords t) (0 : Fin 2); omega
      | ⟨1, _⟩ => show k.val < win0_2.xsize (grid0.coords t) (1 : Fin 2); omega
    unfold Window.fill
    rw [dif_pos ((win0_2.moved_iff _ _).mpr hmv)]
    show V m c main_arg2 (((cfg0.win 2).blk t).view.emb _) = _
    refine congrArg _ ?_
    funext a; apply Fin.ext
    match a with
    | ⟨0, _⟩ => show win0_2.index t (0 : Fin 2) * 2048 + 1 * (j 1).val = win0_3.index t (1 : Fin 2) * 2048 + 1 * (j 1).val; omega
    | ⟨1, _⟩ => show win0_2.index t (1 : Fin 2) * 64 + 1 * k.val = k.val; omega
  rw [hL, hR]

/-- The body obligation: the body's triple at the point's staging buffers; the table slab's buffer is handed back as
    found, the score buffer holds the score array's block on the columns that move (`score_cut`). -/
theorem body_obligation (c : Dev nD) : BodyObligationLoose (dats m 0 c) (defs₀ (F := Ideal)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩⟩
  rw [before0 m c t d0, before1 m c t d1, before2 m c t d2, after0, after1, after2, after3, after4]
  iapply (Body.sound_kernel (F := Ideal) c Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (iblk m c 0 t) (iblk m c 1 t) (win0_2.fill (grid0.coords t) d2 (iblk m c 2 t)) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]
  · iexists d2
    rw [Window.cut_fill]
    iexact H2
  isplitl [H3]
  · iexists (k0_pay1 (F := Ideal) (iblk m c 0 t) (win0_2.fill (grid0.coords t) d2 (iblk m c 2 t)))
    rw [Window.cut_fill, ← score_cut m c t d2, Window.fill_cut]
    iexact H3
  · iexact H4

set_option backward.isDefEq.respectTransparency.types false in
/-- Every weakly fair execution of @main terminates without a fault, every array of the pipeline ending at what the
    proof data's write-backs leave and every other unscoped buffer as the host line after the region leaves it. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the argument arrays end as launched. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Data

end
-- ==== Proof.IdealFinal.lean ====
/-
  What the idealized kernel's results hold after the run, as functions of the argument arrays.

  The score: the 49 column blocks written back — the last one cut to its 1696 columns inside the array — tile the
  score array (column j lies in block j / 2048), and each is the score array's own block, so the array ends at the
  score of the arguments. The labels: the 8 x 128 tile is a reshape of the flat labels, the body replaces every label
  outside [0, 100000) by -1 word by word, the one write-back (at the last point) covers the tile, and the host
  reshapes it back: a reshape there and back is the identity and the rule acts word by word, so the flat result is
  the rule applied to the flat labels.
-/
import proofs.«166110_g46832323396030_cont_8to1c4_234_3_alg».proof.Proof.IdealData
import Idealize.ShloMosaic.Lib.StableHlo.Run
import Idealize.ShloMosaic.Lib.ValueIdx

set_option maxRecDepth 16384

noncomputable section

namespace Cert.KernelIdeal.Final

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Data

variable (m : (ℓ : Loc nD τ sig) → Buf (Elt Ideal) ℓ) (ρ : Dev nD → PrngReg)

/-! ## The score array -/

/-- What point `t` writes back is the score array's block there. -/
theorem flushed3_eq (c : Dev nD) (t : Fin cfg0.N) :
    (dats m 0 c).flushed 3 t = ((cfg0.win 3).blk t).view.read (Elt Ideal) (scoreArr m c) := by
  show (cfg0.win 3).cut (grid0.coords t) ((dats m 0 c).after 3 t) = _
  rw [after3]
  exact win0_3.cut_fill _ _ _

/-- An index of the score array is in point `t`'s block iff each coordinate is in the block's range inside the array. -/
theorem mem_blk3 (t : Fin cfg0.N) (i : S1024x100000.Idx) :
    i ∈ ((cfg0.win 3).blk t).view.set ↔ ∀ a : Fin 2, win0_3.index t a * S1024x2048.size a ≤ (i a).val
      ∧ (i a).val < win0_3.index t a * S1024x2048.size a + win0_3.xsize (grid0.coords t) a := by
  show i ∈ ((View.whole main_v0_0).slice (win0_3.rect t)).set ↔ _
  rw [View.set_slice_whole, Rect.mem_set_unit]
  exact Iff.rfl

/-- Column `j` of the score array is written back at point `j / 2048`. -/
theorem cover3 (i : S1024x100000.Idx) :
    ∃ t : Fin cfg0.N, (cfg0.win 3).flush t = true ∧ i ∈ ((cfg0.win 3).blk t).view.set := by
  have hi0 : (i 0).val < 1024 := (i 0).isLt
  have hi1 : (i 1).val < 100000 := (i 1).isLt
  have hN : cfg0.N = 49 := N_0
  obtain ⟨t, ht⟩ : ∃ t : Fin cfg0.N, t.val = (i 1).val / 2048 := ⟨⟨(i 1).val / 2048, by rw [hN]; omega⟩, rfl⟩
  obtain ⟨e00, e01, e20, e21, e30, e31, ex, ex21, ex30, ex31⟩ := idx_facts t
  refine ⟨t, flush0_3 t, ?_⟩
  rw [mem_blk3]
  intro a
  match a with
  | ⟨0, _⟩ =>
    show win0_3.index t (0 : Fin 2) * 1024 ≤ (i 0).val ∧ (i 0).val < win0_3.index t (0 : Fin 2) * 1024 + win0_3.xsize (grid0.coords t) (0 : Fin 2)
    omega
  | ⟨1, _⟩ =>
    show win0_3.index t (1 : Fin 2) * 2048 ≤ (i 1).val ∧ (i 1).val < win0_3.index t (1 : Fin 2) * 2048 + win0_3.xsize (grid0.coords t) (1 : Fin 2)
    omega

/-- The score array after the run is the score of the arrays the region found. -/
theorem final3 (c : Dev nD) : (dats m 0 c).arrAt 3 cfg0.N = scoreArr m c :=
  (dats m 0 c).arrAt_eq_of_cover 3 (scoreArr m c) (fun t _ => flushed3_eq m c t) cover3

/-! ## The labels -/

/-- The label rule on one word: a label below 0 or at least 100000 becomes -1. -/
def san (x : BitVec 32) : BitVec 32 :=
  Scalar.select (IntOp.ori (IntOp.cmpi .slt x 0#32) (IntOp.cmpi .sge x 100000#32)) 4294967295#32 x

/-- The rule over the flat labels. -/
def labelsOf (p : S1024.Idx → BitVec 32) : S1024.Idx → BitVec 32 := fun i => san (p i)

/-- The body's label payload applies the rule word by word. -/
theorem pay2_apply (v6 : Vec Ideal S8x128 .i32) (j : S8x128.Idx) : k0_pay2 (F := Ideal) v6 j = san (v6 j) := by
  unfold k0_pay2
  simp only [shapeCast_self]
  rfl

/-- The label tile as the region finds it: the flat labels reshaped. -/
theorem V_tile (c : Dev nD) : (V m c main_call0_v0 : S8x128.Idx → BitVec 32)
    = shapeCast S8x128 (m ((c : Thread nD τ).loc main_arg1)) shapeCasts_S1024_S8x128 := by
  show StableHlo.after hostOps0 (fun b => m (c, b)) (Proc.devRef .tc main_call0_v0) = _
  after_results
  rfl

/-- The sanitized tile. -/
def tileLabels (c : Dev nD) : S8x128.Idx → BitVec 32 := k0_pay2 (F := Ideal) (V m c main_call0_v0)

theorem idx_facts4 : ∀ t : Fin cfg0.N,
    win0_1.index t (0 : Fin 2) = 0 ∧ win0_1.index t (1 : Fin 2) = 0
    ∧ win0_4.index t (0 : Fin 2) = 0 ∧ win0_4.index t (1 : Fin 2) = 0 :=
  (by decide +kernel : ∀ t : Fin grid0.N, _)

/-- What a point would write back of the label buffer is the sanitized tile (its one block). -/
theorem flushed4_eq (c : Dev nD) (t : Fin cfg0.N) :
    (dats m 0 c).flushed 4 t = ((cfg0.win 4).blk t).view.read (Elt Ideal) (tileLabels m c) := by
  show (cfg0.win 4).cut (grid0.coords t) ((dats m 0 c).after 4 t) = _
  rw [after4]
  obtain ⟨e10, e11, e40, e41⟩ := idx_facts4 t
  funext j
  show k0_pay2 (F := Ideal) (iblk m c 1 t) j = tileLabels m c (((cfg0.win 4).blk t).view.emb j)
  unfold tileLabels
  rw [pay2_apply, pay2_apply]
  show san (V m c main_call0_v0 (((cfg0.win 1).blk t).view.emb j)) = _
  refine congrArg (fun z => san (V m c main_call0_v0 z)) ?_
  funext a; apply Fin.ext
  match a with
  | ⟨0, _⟩ =>
    show win0_1.index t (0 : Fin 2) * 8 + 1 * (j 0).val = win0_4.index t (0 : Fin 2) * 8 + 1 * (j 0).val
    omega
  | ⟨1, _⟩ =>
    show win0_1.index t (1 : Fin 2) * 128 + 1 * (j 1).val = win0_4.index t (1 : Fin 2) * 128 + 1 * (j 1).val
    omega

theorem mem_blk4 (t : Fin cfg0.N) (i : S8x128.Idx) :
    i ∈ ((cfg0.win 4).blk t).view.set ↔ ∀ a : Fin 2, win0_4.index t a * S8x128.size a ≤ (i a).val
      ∧ (i a).val < win0_4.index t a * S8x128.size a + S8x128.size a := by
  show i ∈ ((View.whole main_call0_v1_1).slice (win0_4.rect t)).set ↔ _
  rw [View.set_slice_whole, Rect.mem_set_unit]
  exact Iff.rfl

/-- The last point writes the whole tile back. -/
theorem cover4 (i : S8x128.Idx) :
    ∃ t : Fin cfg0.N, (cfg0.win 4).flush t = true ∧ i ∈ ((cfg0.win 4).blk t).view.set := by
  have hi0 : (i 0).val < 8 := (i 0).isLt
  have hi1 : (i 1).val < 128 := (i 1).isLt
  have hN : cfg0.N = 49 := N_0
  obtain ⟨t, ht⟩ : ∃ t : Fin cfg0.N, t.val = 48 := ⟨⟨48, by rw [hN]; omega⟩, rfl⟩
  obtain ⟨e10, e11, e40, e41⟩ := idx_facts4 t
  refine ⟨t, (flush0_4 t).mpr (by rw [ht]), ?_⟩
  rw [mem_blk4]
  intro a
  match a with
  | ⟨0, _⟩ =>
    show win0_4.index t (0 : Fin 2) * 8 ≤ (i 0).val ∧ (i 0).val < win0_4.index t (0 : Fin 2) * 8 + 8
    omega
  | ⟨1, _⟩ =>
    show win0_4.index t (1 : Fin 2) * 128 ≤ (i 1).val ∧ (i 1).val < win0_4.index t (1 : Fin 2) * 128 + 128
    omega

/-- The label tile's array after the run is the sanitized tile. -/
theorem final4 (c : Dev nD) : (dats m 0 c).arrAt 4 cfg0.N = tileLabels m c :=
  (dats m 0 c).arrAt_eq_of_cover 4 (tileLabels m c) (fun t _ => flushed4_eq m c t) cover4

/-- The host line after the region reshapes the tile's array back to the flat result. -/
theorem tail_labels (c : Dev nD) :
    Pipeline.afterTail₀ cfgs (dats m) 0 (V0 m) [hostOps1] c main_v0_1 = shapeCast S1024 (tileLabels m c) shapeCasts_S8x128_S1024 := by
  unfold Pipeline.afterTail₀
  show StableHlo.after hostOps1 _ (Proc.devRef .tc main_v0_1) = _
  after_results
  have e : Pipeline.withArrays spec0 c (V0 m c) (fun w => (dats m 0 c).arrAt w cfg0.N) (Proc.devRef .tc main_call0_v1_1) = tileLabels m c :=
    (Pipeline.withArrays_arr spec0 launch0.win.arr_inj c (V0 m c) (fun w => (dats m 0 c).arrAt w cfg0.N) 4).trans (final4 m c)
  funext i
  show shapeCast S1024 (Pipeline.withArrays spec0 c (V0 m c) (fun w => (dats m 0 c).arrAt w cfg0.N) (Proc.devRef .tc main_call0_v1_1)) shapeCasts_S8x128_S1024 i = _
  rw [e]

/-- A reshape to the tile, the rule word by word, and the reshape back: the rule over the flat labels. -/
theorem labels_eq (p : S1024.Idx → BitVec 32) :
    shapeCast S1024 (k0_pay2 (F := Ideal) (shapeCast S8x128 p shapeCasts_S1024_S8x128)) shapeCasts_S8x128_S1024 = labelsOf p := by
  funext i
  have h := congrFun (shapeCast_shapeCast p shapeCasts_S1024_S8x128 shapeCasts_S8x128_S1024) i
  unfold shapeCast at h ⊢
  rw [pay2_apply]
  exact congrArg san h

/-! ## The run, read -/

/-- Every weakly fair execution of the idealized kernel's @main terminates without a fault, the score result at the
    score of the argument arrays, the label result at the rule over the flat labels, the arguments as launched. -/
theorem run : θ_run defs (onTc (τ := τ) (main (F := Ideal))) ⟨m, fun _ => 0, ρ⟩ fun r => ∀ c : Dev nD,
      r.2.mem ((c.tc : Thread nD τ).loc main_v0_0) = score (m ((c.tc : Thread nD τ).loc main_arg0)) (m ((c.tc : Thread nD τ).loc main_arg2))
      ∧ r.2.mem ((c.tc : Thread nD τ).loc main_v0_1) = labelsOf (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨
      ((h c).1 3).trans ((final3 m c).trans (by unfold scoreArr; rw [V_main_arg0, V_main_arg2])),
      ((h c).2 main_v0_1 (Pipeline.mem_restRefs_of main_v0_1 (by decide) (by decide))).trans
        ((tail_labels m c).trans (by unfold tileLabels; rw [V_tile]; exact labels_eq _)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c)))⟩)
    (run_main m ρ)

end Cert.KernelIdeal.Final

end
-- ==== Proof.RefValue.lean ====
/-
  The reference computes the same two functions of its arguments.

  Its score is one host product of the feature batch with the transposed table: entry (i, j) is the sum over the
  features k of feats(i, k) * table(j, k) — the specification, term for term. Its labels are the select of -1 against
  the label itself under (label < 0 or label >= 100000), all over the flat array: the rule word by word.
-/
import proofs.«166110_g46832323396030_cont_8to1c4_234_3_alg».proof.Proof.IdealFinal
import proofs.«166110_g46832323396030_cont_8to1c4_234_3_alg».proof.Proof.Gen.ReferenceIdeal.Read

noncomputable section

namespace Cert.ReferenceIdeal.RefValue

open Cert.ReferenceIdeal Cert.ReferenceIdeal.Gen Cert.ReferenceIdeal.Read
open Idealize.ShloMosaic Idealize.SL.Sem

/-- The reference's product, entry by entry, is the score. -/
theorem ref_score (x0 : (⟨S1024x64, .f32⟩ : BufTy).Contents (Elt Ideal)) (x2 : (⟨S100000x64, .f32⟩ : BufTy).Contents (Elt Ideal)) :
    val_main_v7 (F := Ideal) x0 x2 = Cert.KernelIdeal.Data.score x0 x2 := by
  funext i
  rw [val_main_v7_apply]
  unfold Cert.KernelIdeal.Data.score
  refine Finset.sum_congr rfl fun k _ => ?_
  rw [val_main_v6_apply]
  have el : lidx_main_v7 i k = Cert.KernelIdeal.Data.fix i k := funext fun a => Fin.ext (by
    match a with
    | ⟨0, _⟩ => rfl
    | ⟨1, _⟩ => rfl)
  have er : idx_main_v6 (ridx_main_v7 i k) = Cert.KernelIdeal.Data.wix i k := funext fun a => Fin.ext (by
    match a with
    | ⟨0, _⟩ => rfl
    | ⟨1, _⟩ => rfl)
  rw [el, er]

/-- The reference's label select is the rule over the flat labels. -/
theorem ref_labels (x1 : (⟨S1024, .i32⟩ : BufTy).Contents (Elt Ideal)) :
    val_main_v5 (F := Ideal) x1 = Cert.KernelIdeal.Final.labelsOf x1 := by
  funext i
  rw [val_main_v5_apply, val_main_v4_apply, val_main_v1_apply, val_main_v3_apply, val_main_v0_apply, val_main_v2_apply,
    val_main_call0_v1_apply]
  rfl

end Cert.ReferenceIdeal.RefValue

end
-- ==== Proof.lean ====
/-
  The certificate: a class-tiled score matmul with label sanitization against its jnp reference.

  The kernel tiles the 100000 classes in 49 slabs of 2048 table rows; at grid point t it multiplies the whole feature
  batch (1024 x 64) with slab t and writes columns 2048 t .. 2048 t + 2047 of the score array, the last slab and the
  last column block cut to the 1696 rows, resp. columns, inside the arrays; on the side it rewrites the labels
  (viewed as an 8 x 128 tile) with every label outside [0, 100000) replaced by -1. The reference is one product
  feats * table^T and one select over the flat labels.

  Over the extended reals both scores are, entry (i, j), the sum over the 64 features k of feats(i, k) * table(j, k):
  a change of float format is the identity, the matrix unit's product into a zero accumulator and the host's product
  are the plain sum, and entry (p, q) of a slab's product reads row q of the slab only, so the slab buffer's rows past
  the table's end never reach a column that is written back. No law of arithmetic is needed to join the two sides,
  so the precondition (finite inputs) is not opened. Both label results are the same word-by-word rule of the flat
  labels; the tile is a reshape there and back.

  Modules: IdealBody / BitsBody (the body's triple, at either instance), IdealPayload (the product at an index),
  IdealData (the idealized kernel's proof data and run), IdealFinal (its results as functions of the arguments),
  BitsData (the word-level kernel's frame, outputs forgotten), RefValue (the reference's two results).
-/
import proofs.«166110_g46832323396030_cont_8to1c4_234_3_alg».proof.Defs
import proofs.«166110_g46832323396030_cont_8to1c4_234_3_alg».proof.Proof.Gen.Kernel
import proofs.«166110_g46832323396030_cont_8to1c4_234_3_alg».proof.Proof.Gen.KernelIdeal
import proofs.«166110_g46832323396030_cont_8to1c4_234_3_alg».proof.Proof.Gen.ReferenceIdeal
import proofs.«166110_g46832323396030_cont_8to1c4_234_3_alg».proof.Proof.Gen.Pre_finite_inputs
import proofs.«166110_g46832323396030_cont_8to1c4_234_3_alg».proof.Proof.Gen.ReferenceIdeal.Run
import proofs.«166110_g46832323396030_cont_8to1c4_234_3_alg».proof.Proof.Gen.ReferenceIdeal.Read
import proofs.«166110_g46832323396030_cont_8to1c4_234_3_alg».proof.Proof.BitsData
import proofs.«166110_g46832323396030_cont_8to1c4_234_3_alg».proof.Proof.IdealFinal
import proofs.«166110_g46832323396030_cont_8to1c4_234_3_alg».proof.Proof.RefValue
import Idealize.ShloMosaic.Adequacy
import Idealize.ShloMosaic.Init

noncomputable section

namespace Cert.Proof

open Idealize.ShloMosaic Idealize.SL.Sem

/-- The word-level kernel runs to the end without a fault and leaves its arguments as launched. -/
theorem frame_k : Cert.frame_Kernel (hKernel := Cert.Kernel.Gen.facts) (hPre_finite_inputs := Cert.Pre_finite_inputs.Gen.facts) :=
  fun m ρ _ => Cert.Kernel.Data.frame (F := Bits) m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.Data.frame m ρ

/-- And the reference: its run with the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.Value.run (F := Ideal) m ρ)

/-- The ideal pass rewrote nothing. -/
theorem preserves : Cert.preserves_Kernel_KernelIdeal := trivial

/-- From memories agreeing on the arguments both programs end with the score of the arguments and the label rule
    over the flat labels. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, Cert.KernelIdeal.Final.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v7_eq, Cert.ReferenceIdeal.RefValue.ref_score, (hagree c).1, (hagree c).2.2]
  · rw [(h c).2.1, Cert.ReferenceIdeal.Read.val_main_v5_eq, Cert.ReferenceIdeal.RefValue.ref_labels, (hagree c).2.1]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
